-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : IVec S16384x4096 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S1x128 : Shape := ⟨2, ![1, 128]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 26
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .i32⟩
  | .hbm, ⟨2, _⟩ => ⟨S1x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S1x128, .f32⟩
  | .local _ .vmem, ⟨5, _⟩ => ⟨S1x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v53 : BitVec 1 := Scalar.cmpi .eq arg0 c63_i32
  let v54 : BitVec 32 := Scalar.extui v53
  let c0_i32_19 : BitVec 32 := 0#32
  let v55 : BitVec 1 := Scalar.cmpi .ne v54 c0_i32_19
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S256x4096_S256x4096_0_0 : ∀ a, (![0, 0] : Fin 2 → Nat) a + S256x4096.size a ≤ S256x4096.size a
  h_S256x4096 : 0 < S256x4096.numel
  shapeCasts_S256x4096_S1x256x4096 : S256x4096.ShapeCasts S1x256x4096
  reduces_S1x256x4096_S1 : S1x256x4096.Reduces [1, 2] S1
  shapeCasts_S1_S1x1x1 : S1.ShapeCasts S1x1x1
  inpos_S1x1x1_p0_0_0 : ∀ a, (![0, 0, 0] : Fin 3 → Nat) a < S1x1x1.size a
  iota_S1x128_d1_w32 : S1x128.Iotas .tc 32 [1]
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S67108864 : Shape := ⟨1, ![67108864]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .i32⟩
  | .hbm, ⟨2, _⟩ => ⟨S67108864, .f32⟩
  | .hbm, ⟨3, _⟩ => ⟨S67108864, .i32⟩
  | .hbm, ⟨4, _⟩ => ⟨S67108864, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S67108864, .i32⟩
  | .hbm, ⟨17, _⟩ => ⟨S67108864, .i1⟩
  | .hbm, ⟨18, _⟩ => ⟨S67108864, .f32⟩
  | .hbm, ⟨19, _⟩ => ⟨S67108864, .f32⟩
  | .hbm, ⟨20, _⟩ => ⟨S_, .f32⟩
  | .hbm, ⟨21, _⟩ => ⟨S67108864, .f32⟩
  | .hbm, ⟨22, _⟩ => ⟨S67108864, .f32⟩
  | .hbm, ⟨23, _⟩ => ⟨S_, .f32⟩
  | .hbm, ⟨24, _⟩ => ⟨S_, .f32⟩
  | .hbm, ⟨25, _⟩ => ⟨S_, .i32⟩
  | .hbm, ⟨26, _⟩ => ⟨S67108864, .i32⟩
  | .hbm, ⟨27, _⟩ => ⟨S67108864, .i1⟩
  | .hbm, ⟨28, _⟩ => ⟨S67108864, .f32⟩
  | .hbm, ⟨29, _⟩ => ⟨S67108864, .f32⟩
  | .hbm, ⟨30, _⟩ => ⟨S67108864, .f32⟩
  | .hbm, ⟨31, _⟩ => ⟨S_, .f32⟩
  | .hbm, ⟨32, _⟩ => ⟨S67108864, .f32⟩
  | .hbm, ⟨33, _⟩ => ⟨S67108864, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_call1_v0 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_cst_9 : Ref sig .tc := ⟨.hbm, 36, rfl⟩
abbrev main_v21 : Ref sig .tc := ⟨.hbm, 37, rfl⟩
abbrev main_v22 : Ref sig .tc := ⟨.hbm, 38, rfl⟩
abbrev main_cst_10 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_11 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  shapeCasts_S16384x4096_S67108864 : S16384x4096.ShapeCasts S67108864
  reducesTo_S67108864_S_d0 : S67108864.ReducesTo [0] S_
  h_S_ : 0 < S_.numel
  bcast_S_S67108864 : S_.BroadcastsInDim S67108864 (![] : Fin 0 → Fin S67108864.rank)

variable [Facts₀]

class Facts : Prop extends Facts₀ where

variable [Facts]
-- ==== Proof.Pieces.lean ====
/-
  What one grid point leaves in the carried accumulator, as ONE term.

  The body adds to the (1,128) accumulator a row whose lane 0 holds the tile's sum of the targets (as floats), lane 1 the tile's masked
  sum of -log x, lane 2 the tile's masked sum of -log1p(-x), and zero elsewhere. At the first point it first stores the
  zero row and adds to that; at the last point it also copies the accumulator into the output block. So in every case
  the accumulator ends at `step x t acc` of the point's two input tiles and of what the accumulator held before (the
  zero row at the first point), and at the last point the output block holds the same row.
-/
import proofs.«118285_j72258529788242_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The lane numbers 0 … 127 of the accumulator row, as the body computes them. -/
abbrev lanes : IVec S1x128 32 := iota .tc S1x128 32 [1] iota_S1x128_d1_w32

/-- One point's update of the accumulator row: the row `acc` plus the point's three tile sums placed in lanes 0, 1, 2. -/
def step (x : Vec F S256x4096 .f32) (t : Vec F S256x4096 .i32) (acc : Vec F S1x128 .f32) : Vec F S1x128 .f32 :=
  k0_pay1 (k0_pay3 t) (k0_pay4 x t) (k0_pay5 x t) lanes k0_pay6 k0_pay7 2#32 acc

/-- The zero row the first point stores before accumulating. -/
abbrev zeroRow : Vec F S1x128 .f32 := k0_pay2 (F := F)

/-- First point: the zero row is stored, read back, and updated. -/
theorem scratch_first (c : Dev nD) (i : grid0.Coords) (a1 : Memref sig .tc .vmem S256x4096 .f32) (h1 : a1.IsWhole)
    (a2 : Memref sig .tc .vmem S256x4096 .i32) (h2 : a2.IsWhole) (a3 : Memref sig .tc .vmem S1x128 .f32) (h3 : a3.IsWhole)
    (a4 : Memref sig .tc .vmem S1x128 .f32) (h4 : a4.IsWhole) (hc0 : cond0_0 i) (hc1 : ¬cond0_1 i)
    (x : Vec F S256x4096 .f32) (t : Vec F S256x4096 .i32) :
    sout0_A_0 c i a1 h1 a2 h2 a3 h3 a4 h4 hc0 hc1 x t = step x t zeroRow := by
  unfold sout0_A_0
  rw [View.read_writes_eq_canon _ _ _ (scover0_A_0 c i a1 h1 a2 h2 a3 h3 a4 h4 hc0 hc1 x t)]
  unfold kernelRun0_A
  dsimp only
  sl_unfold_words
  rw [View.canon_cons_unit_zero (S := S1x128) hz, View.readCov_unit_zero (S := S1x128) _ hz]
  simp only [View.readAt_eq_ld, h1.read_unread, h2.read_unread, View.ld_unit_zero (S := S256x4096) hz]
  rfl

/-- A middle point: the accumulator is read and updated. -/
theorem scratch_middle (c : Dev nD) (i : grid0.Coords) (a1 : Memref sig .tc .vmem S256x4096 .f32) (h1 : a1.IsWhole)
    (a2 : Memref sig .tc .vmem S256x4096 .i32) (h2 : a2.IsWhole) (a3 : Memref sig .tc .vmem S1x128 .f32) (h3 : a3.IsWhole)
    (a4 : Memref sig .tc .vmem S1x128 .f32) (h4 : a4.IsWhole) (hc0 : ¬cond0_0 i) (hc1 : ¬cond0_1 i)
    (x : Vec F S256x4096 .f32) (t : Vec F S256x4096 .i32) (acc : Vec F S1x128 .f32) :
    sout0_B_0 c i a1 h1 a2 h2 a3 h3 a4 h4 hc0 hc1 x t acc = step x t acc := by
  unfold sout0_B_0
  rw [View.read_writes_eq_canon _ _ _ (scover0_B_0 c i a1 h1 a2 h2 a3 h3 a4 h4 hc0 hc1 x t acc)]
  unfold kernelRun0_B
  dsimp only
  sl_unfold_words
  rw [View.canon_unit_zero hz]
  simp only [View.readAt_eq_ld, h1.read_unread, h2.read_unread, h4.read_unread, View.ld_unit_zero (S := S256x4096) hz,
    View.ld_unit_zero (S := S1x128) hz]
  rfl

/-- The last point: the accumulator is read and updated, -/
theorem scratch_last (c : Dev nD) (i : grid0.Coords) (a1 : Memref sig .tc .vmem S256x4096 .f32) (h1 : a1.IsWhole)
    (a2 : Memref sig .tc .vmem S256x4096 .i32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i)
    (x : Vec F S256x4096 .f32) (t : Vec F S256x4096 .i32) (acc : Vec F S1x128 .f32) :
    sout0_C_0 c i a1 h1 a2 h2 a3 h3 a4 h4 hc0 hc1 x t acc = step x t acc := by
  unfold sout0_C_0
  rw [View.read_writes_eq_canon _ _ _ (scover0_C_0 c i a1 h1 a2 h2 a3 h3 a4 h4 hc0 hc1 x t acc)]
  unfold kernelRun0_C
  dsimp only
  sl_unfold_words
  rw [View.canon_unit_zero hz]
  simp only [View.readAt_eq_ld, h1.read_unread, h2.read_unread, h4.read_unread, View.ld_unit_zero (S := S256x4096) hz,
    View.ld_unit_zero (S := S1x128) hz]
  rfl

/-- and the updated row is what the output block receives. -/
theorem out_last (c : Dev nD) (i : grid0.Coords) (a1 : Memref sig .tc .vmem S256x4096 .f32) (h1 : a1.IsWhole)
    (a2 : Memref sig .tc .vmem S256x4096 .i32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i)
    (x : Vec F S256x4096 .f32) (t : Vec F S256x4096 .i32) (acc : Vec F S1x128 .f32) :
    out0_C_2 c i a1 h1 a2 h2 a3 h3 a4 h4 hc0 hc1 x t acc = step x t acc := by
  unfold out0_C_2
  rw [View.read_writes_eq_canon _ _ _ (cover0_C_2 c i a1 h1 a2 h2 a3 h3 a4 h4 hc0 hc1 x t acc)]
  unfold kernelRun0_C
  dsimp only
  sl_unfold_words
  rw [View.canon_unit_zero hz, View.readCov_unit_zero (S := S1x128) _ hz]
  simp only [View.readAt_eq_ld, h1.read_unread, h2.read_unread, h4.read_unread, View.ld_unit_zero (S := S256x4096) hz,
    View.ld_unit_zero (S := S1x128) hz]
  rfl

end Cert.KernelIdeal.Acc

end
-- ==== Proof.Chain.lean ====
/-
  The accumulator row point by point, and the result array.

  After point 0 the carried row is one update of the zero row by the first pair of tiles; after point n + 1 it is one update,
  by that point's pair of tiles, of the row after point n. Only the last point (63) writes the output block back, and what
  it writes is the row after point 63; the output's one block is the whole (1,128) result array, so that array ends
  holding that row.
-/
import proofs.«118285_j72258529788242_1_alg».proof.Proof.Pieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The carried row after point `n`: the left fold of `step` over the points' tiles, from the zero row. -/
def rowAfter (c : Dev nD) : (n : ℕ) → n < cfg0.N → Vec F S1x128 .f32
  | 0, h => step (iblk m c 0 ⟨0, h⟩) (iblk m c 1 ⟨0, h⟩) zeroRow
  | n + 1, h => step (iblk m c 0 ⟨n + 1, h⟩) (iblk m c 1 ⟨n + 1, h⟩) (rowAfter c n (Nat.lt_of_succ_lt h))

/-- What the carried scratch holds after point `n` is that row: by induction on the point. -/
theorem scratch_eq (c : Dev nD) : ∀ (n : ℕ) (h : n < cfg0.N), (outsAt0 m c n h).2 = rowAfter m c n h
  | 0, h => by
    rw [outsAt0_A m c ⟨0, h⟩ rfl (by show ¬0 % 64 = 63; omega)]
    dsimp only
    rw [scratch_first]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [scratch_last]
      show step _ _ (outsAt0 m c n _).2 = step _ _ (rowAfter m c n _)
      rw [scratch_eq c n]
    · rw [outsAt0_B m c ⟨n + 1, h⟩ h0 h1]
      dsimp only
      rw [scratch_middle]
      show step _ _ (outsAt0 m c n _).2 = step _ _ (rowAfter m c n _)
      rw [scratch_eq c n]

/-- The last grid point. -/
abbrev tLast : Fin cfg0.N := ⟨63, by rw [show cfg0.N = 64 from N_0]; decide⟩

/-- The row the kernel ends with. -/
abbrev lastRow (c : Dev nD) : Vec F S1x128 .f32 := rowAfter m c 63 tLast.isLt

/-- At the last point the output block receives the row after that point. -/
theorem out_eq (c : Dev nD) : (outsAt0 m c tLast.val tLast.isLt).1 = lastRow m c := by
  rw [outsAt0_C m c tLast (by show ¬63 % 64 = 0; omega) (by show 63 % 64 = 63; rfl)]
  dsimp only
  rw [out_last]
  show step _ _ (outsAt0 m c 62 _).2 = step _ _ (rowAfter m c 62 _)
  rw [scratch_eq m c 62]

/-- The result array's contents at the end, as a buffer. -/
abbrev result (c : Dev nD) : Buf (Elt F) ((c : Thread nD τ).loc main_v0) := lastRow m c

/-- The one write-back, at point 63, writes that row: block (0, 0) of the (1,128) array read through zero offsets is the
    array. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, out_eq]
  have hz' : (fun a => win0_2.index tLast a * main_v0.ty.shape.size a) = fun _ => 0 := funext fun a => by fin_cases a <;> decide
  exact (Memref.read_access_unit_zero (Elt F) main_v0 hz' (fun a => by rw [congrFun hz' a]; simp) (result m c)).symm

/-- So the result array ends holding the row after point 63: that point's block covers it. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 128 from by decide +kernel]; omega⟩

end Cert.KernelIdeal.Acc

end
-- ==== Proof.Spec.lean ====
/-
  The class-balanced cross-entropy loss as ONE function of the two argument arrays, on the extended reals.

  For probabilities x and integer targets t over the 16384 × 4096 array let
    S = Σ float(t),   P = Σ [t = 1] · (-log x),   N = Σ [t = 0] · (-log1p(-x))
  (an entry whose target is neither 0 nor 1 contributes 0 to P and to N), and with L the float word of the entry count
    loss = ((L / (S + 1) + 1) · P + (L / (L - S) + 1) · N) / L.
  Both programs compute exactly this: they differ only in the order in which the three sums are taken, and a finite sum
  of extended reals does not depend on its order.
-/
import Idealize.ShloMosaic.PureOps.Ideal.Laws
import Idealize.ShloMosaic.Lib.ValueIdx

noncomputable section

namespace Cert.Spec

open Idealize.ShloMosaic

/-- The shape of the two argument arrays, -/
abbrev Arr : Shape := ⟨2, ![16384, 4096]⟩
/-- and of the one result, a scalar. -/
abbrev Sc : Shape := ⟨0, ![]⟩

/-- An entry's share of S: its target read as a float. -/
def cntTerm (t : BitVec 32) : Ideal .f32 := FloatOps.sitofp .f32 t

/-- An entry's share of P: `-log x` where the target is 1, else 0. -/
def posTerm (x : Ideal .f32) (t : BitVec 32) : Ideal .f32 :=
  Scalar.select (IntOp.cmpi .eq t 1#32) (-(Ideal.log x)) 0

/-- An entry's share of N: `-log1p(-x)` where the target is 0, else 0. -/
def negTerm (x : Ideal .f32) (t : BitVec 32) : Ideal .f32 :=
  Scalar.select (IntOp.cmpi .eq t 0#32) (-(Ideal.log1p (-x))) 0

theorem zero_word : Scalar.ofBits (F := Ideal) .f32 0x00000000#32 = 0 := Ideal.ofBits_zero_f32

/-- The kernel spells the negation as a subtraction from the zero word: `0 - y = -y` on every extended real. -/
theorem posTerm_sub (x : Ideal .f32) (t : BitVec 32) :
    Scalar.select (IntOp.cmpi .eq t 1#32)
      (FloatOps.subf (Scalar.ofBits .f32 0x00000000#32) (FloatOps.log x)) (Scalar.ofBits .f32 0x00000000#32) = posTerm x t := by
  unfold posTerm
  rw [Ideal.subf_def, Ideal.log_def, zero_word, zero_sub]

theorem negTerm_sub (x : Ideal .f32) (t : BitVec 32) :
    Scalar.select (IntOp.cmpi .eq t 0#32)
      (FloatOps.subf (Scalar.ofBits .f32 0x00000000#32)
        (FloatOps.log1p (FloatOps.subf (Scalar.ofBits .f32 0x00000000#32) x))) (Scalar.ofBits .f32 0x00000000#32) = negTerm x t := by
  unfold negTerm
  rw [Ideal.subf_def, Ideal.subf_def, Ideal.log1p_def, zero_word, zero_sub, zero_sub]

/-- The host program spells it as a negation, and its logarithms are the same functions. -/
theorem posTerm_neg (x : Ideal .f32) (t : BitVec 32) :
    Scalar.select (IntOp.cmpi .eq t 1#32)
      (FloatOps.hostNegf (FloatOps.hostUnary .log x)) (FloatOps.ofBits .f32 0x00000000#32) = posTerm x t := by
  unfold posTerm
  rw [Ideal.hostNegf_def, Ideal.negf_def, Ideal.hostUnary_log_def, Ideal.ofBits_def, Ideal.ofBits_zero_f32]

theorem negTerm_neg (x : Ideal .f32) (t : BitVec 32) :
    Scalar.select (IntOp.cmpi .eq t 0#32)
      (FloatOps.hostNegf (FloatOps.hostUnary .log1p (FloatOps.hostNegf x))) (FloatOps.ofBits .f32 0x00000000#32) = negTerm x t := by
  unfold negTerm
  rw [Ideal.hostNegf_def, Ideal.negf_def, Ideal.hostUnary_log1p_def, Ideal.hostNegf_def, Ideal.negf_def, Ideal.ofBits_def,
    Ideal.ofBits_zero_f32]

/-- The three sums over the whole array. -/
def cnt (T : Arr.Idx → BitVec 32) : EReal := ∑ i : Arr.Idx, cntTerm (T i)
def pos (X : Arr.Idx → Ideal .f32) (T : Arr.Idx → BitVec 32) : EReal := ∑ i : Arr.Idx, posTerm (X i) (T i)
def neg (X : Arr.Idx → Ideal .f32) (T : Arr.Idx → BitVec 32) : EReal := ∑ i : Arr.Idx, negTerm (X i) (T i)

/-- The closing scalar arithmetic, shared word for word by both programs: `L` is the word 0x4C800000 (2^26) and `1` the
    word 0x3F800000. -/
def loss (s p n : FVec Ideal Sc .f32) : FVec Ideal Sc .f32 :=
  Host.divf (F := Ideal)
    (addf
      (mulf (addf (Host.divf (F := Ideal) (constant (F := Ideal) Sc .f32 0x4C800000#32) (addf s (constant (F := Ideal) Sc .f32 0x3F800000#32)))
        (constant (F := Ideal) Sc .f32 0x3F800000#32)) p)
      (mulf (addf (Host.divf (F := Ideal) (constant (F := Ideal) Sc .f32 0x4C800000#32) (subf (constant (F := Ideal) Sc .f32 0x4C800000#32) s))
        (constant (F := Ideal) Sc .f32 0x3F800000#32)) n))
    (constant (F := Ideal) Sc .f32 0x4C800000#32)

/-- The result as one function of the argument arrays. -/
def G (X : Arr.Idx → Ideal .f32) (T : Arr.Idx → BitVec 32) : FVec Ideal Sc .f32 :=
  loss (fun _ => cnt T) (fun _ => pos X T) (fun _ => neg X T)

end Cert.Spec

end
-- ==== Proof.LibGridSum.lean ====
/-
  Sums over an array's whole index set do not see how the array is laid out or cut into blocks of rows.
  Stated in any commutative additive monoid, so they hold of the extended reals, where sums need no finiteness.

  • `sum_shapeCast`, `sum_shapeCast₂`: a reshape only renames the indices, so a sum over every index of a function of the
    reshaped array's entries (of two arrays reshaped alike) is the sum over every index of the arrays themselves.
  • `blockRow`, `sum_rowBlocks`: an array of N = T·R rows cut into T blocks of R consecutive rows — the sum over the blocks
    of the sums over a block is the sum over the array.
  • `sum_fin_succ_last`: a sum over the first n + 1 naturals' `Fin` type splits off its last term (the step of a running
    total kept across the points of a grid).
-/
import Mathlib.Algebra.BigOperators.Fin
import Mathlib.Algebra.BigOperators.Intervals
import Idealize.ShloMosaic.Lib.ValueIdx
import Idealize.ShloMosaic.PureOps.ShapeOps

namespace Cert.GridSum

open Idealize.ShloMosaic Idealize.ShloMosaic.ValueIdx

variable {M : Type*} [AddCommMonoid M]

/-- A sum over every index of a function of a reshaped array's entries is the sum over the array's own indices. -/
theorem sum_shapeCast {α : Type} {s t : Shape} (x : s.Idx → α) (h : s.ShapeCasts t) (g : α → M) :
    ∑ j : t.Idx, g (shapeCast t x h j) = ∑ i : s.Idx, g (x i) :=
  Equiv.sum_comp (Shape.reshapeEquiv h) fun i => g (x i)

/-- The same for a function of two arrays reshaped alike. -/
theorem sum_shapeCast₂ {α β : Type} {s t : Shape} (x : s.Idx → α) (y : s.Idx → β) (h : s.ShapeCasts t) (g : α → β → M) :
    ∑ j : t.Idx, g (shapeCast t x h j) (shapeCast t y h j) = ∑ i : s.Idx, g (x i) (y i) :=
  Equiv.sum_comp (Shape.reshapeEquiv h) fun i => g (x i) (y i)

/-- Two places `u·R + p`, `u'·R + p'` with `p, p' < R` coincide only if the blocks and the places within them do. -/
theorem block_unique {R a b p q : ℕ} (hp : p < R) (hq : q < R) (h : a * R + p = b * R + q) : a = b ∧ p = q := by
  have hR : 0 < R := by omega
  have ha : (a * R + p) / R = a := by rw [Nat.mul_comm, Nat.mul_add_div hR, Nat.div_eq_of_lt hp, Nat.add_zero]
  have hb : (b * R + q) / R = b := by rw [Nat.mul_comm, Nat.mul_add_div hR, Nat.div_eq_of_lt hq, Nat.add_zero]
  have hab : a = b := by rw [← ha, h, hb]
  subst hab
  exact ⟨rfl, by omega⟩

theorem block_bound {T R N : ℕ} (hN : T * R = N) {u p : ℕ} (hu : u < T) (hp : p < R) : u * R + p < N := by
  subst hN
  calc u * R + p < u * R + R := by omega
    _ = (u + 1) * R := by rw [Nat.succ_mul]
    _ ≤ T * R := Nat.mul_le_mul_right R hu

/-- Entry `(r, k)` of block `u` of an array of `T·R` rows cut into blocks of `R` rows: entry `(u·R + r, k)` of the array. -/
def blockRow {T R C N : ℕ} (hN : T * R = N) (u : Fin T) (y : (⟨2, ![R, C]⟩ : Shape).Idx) : (⟨2, ![N, C]⟩ : Shape).Idx :=
  ix2 ⟨u.val * R + (y 0).val, block_bound hN u.isLt (idx2_lt0 y)⟩ (y 1)

theorem blockRow_val0 {T R C N : ℕ} (hN : T * R = N) (u : Fin T) (y : (⟨2, ![R, C]⟩ : Shape).Idx) :
    (blockRow hN u y 0).val = u.val * R + (y 0).val := rfl
theorem blockRow_val1 {T R C N : ℕ} (hN : T * R = N) (u : Fin T) (y : (⟨2, ![R, C]⟩ : Shape).Idx) :
    (blockRow hN u y 1).val = (y 1).val := rfl

/-- The blocks tile the array: every entry of the array is entry `(r, k)` of exactly one block. -/
theorem blockRow_bijective {T R C N : ℕ} (hN : T * R = N) :
    Function.Bijective fun p : Fin T × (⟨2, ![R, C]⟩ : Shape).Idx => blockRow (C := C) hN p.1 p.2 := by
  constructor
  · rintro ⟨u, y⟩ ⟨u', y'⟩ h
    have e0 : u.val * R + (y 0).val = u'.val * R + (y' 0).val := congrArg (fun i : (⟨2, ![N, C]⟩ : Shape).Idx => (i 0).val) h
    have e1 : (y 1).val = (y' 1).val := congrArg (fun i : (⟨2, ![N, C]⟩ : Shape).Idx => (i 1).val) h
    obtain ⟨hu, h0⟩ := block_unique (idx2_lt0 y) (idx2_lt0 y') e0
    have hy : y = y' := by
      rw [eq_ix2 y, eq_ix2 y']
      exact congrArg₂ ix2 (Fin.ext h0) (Fin.ext e1)
    exact Prod.ext (Fin.ext hu) hy
  · intro i
    have hi : (i 0).val < N := idx2_lt0 i
    have hR : 0 < R := by
      rcases Nat.eq_zero_or_pos R with h | h
      · subst h; subst hN; simp at hi
      · exact h
    have hq : (i 0).val / R < T := Nat.div_lt_of_lt_mul (by rw [Nat.mul_comm, hN]; exact hi)
    refine ⟨(⟨(i 0).val / R, hq⟩, ix2 ⟨(i 0).val % R, Nat.mod_lt _ hR⟩ (i 1)), ?_⟩
    funext a
    match a with
    | ⟨0, _⟩ => exact Fin.ext (show (i 0).val / R * R + (i 0).val % R = (i 0).val from Nat.div_add_mod' _ _)
    | ⟨1, _⟩ => rfl

/-- The sum over the blocks of the sums over a block is the sum over the array. -/
theorem sum_rowBlocks {T R C N : ℕ} (hN : T * R = N) (f : (⟨2, ![N, C]⟩ : Shape).Idx → M) :
    ∑ u : Fin T, ∑ y : (⟨2, ![R, C]⟩ : Shape).Idx, f (blockRow hN u y) = ∑ i : (⟨2, ![N, C]⟩ : Shape).Idx, f i := by
  rw [← Fintype.sum_prod_type']
  exact Fintype.sum_bijective _ (blockRow_bijective hN) _ _ fun _ => rfl

/-- A sum over `Fin (n + 2)` is the sum over its first `n + 1` indices plus the last term. -/
theorem sum_fin_succ_last (n : ℕ) (f : Fin (n + 2) → M) :
    ∑ u : Fin (n + 2), f u = ∑ u : Fin (n + 1), f ⟨u.val, by omega⟩ + f ⟨n + 1, by omega⟩ := by
  rw [Fin.sum_univ_castSucc]
  rfl

end Cert.GridSum
-- ==== Proof.Tiles.lean ====
/-
  A tile's three reductions, on the extended reals: each is the sum over every entry of the (256,4096) tile of that
  entry's term — the target as a float, `-log x` where the target is 1, `-log1p(-x)` where it is 0 (the kernel writes
  `0 - y` for `-y`). The kernel views the tile as (1,256,4096) and reduces the two long axes; a reshape only renames
  indices, so the sum is over the tile's own index set.
-/
import proofs.«118285_j72258529788242_1_alg».proof.Proof.Pieces
import proofs.«118285_j72258529788242_1_alg».proof.Proof.Spec
import proofs.«118285_j72258529788242_1_alg».proof.Proof.LibGridSum
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.TcCoe Idealize.SL.Sem

namespace Cert.KernelIdeal.Acc

open Cert.KernelIdeal Cert.KernelIdeal.Gen Cert.Spec Cert.GridSum Idealize.ShloMosaic.ValueIdx

/-- A sum reduction of a (1,256,4096) array over its two long axes, read at Ideal: the sum of every entry. -/
theorem tileReduce (v : FVec Ideal S1x256x4096 .f32) (hacc : (0x00000000#32 : BitVec 32) = 0x00000000#32) (j : S1.Idx) :
    multiReduction .add [1, 2] S1 v 0x00000000#32 reduces_S1x256x4096_S1 (.inl rfl) hacc j = ∑ i : S1x256x4096.Idx, v i :=
  Ideal.multiReduction_add_total v 0x00000000#32 reduces_S1x256x4096_S1 (fun b => by fin_cases b; rfl) (.inl rfl) hacc j

/-- The sum of a tile's targets read as floats. -/
theorem cntTile (t : Vec Ideal S256x4096 .i32) : k0_pay3 (F := Ideal) t = ∑ y : S256x4096.Idx, cntTerm (t y) := by
  unfold k0_pay3
  dsimp only
  refine (tileReduce _ rfl _).trans ?_
  exact (sum_shapeCast (sitofp (F := Ideal) .f32 t) shapeCasts_S256x4096_S1x256x4096 fun v => v).trans
    (Finset.sum_congr rfl fun y _ => rfl)

/-- The sum over a tile of `-log x` where the target is 1. -/
theorem posTile (x : Vec Ideal S256x4096 .f32) (t : Vec Ideal S256x4096 .i32) :
    k0_pay4 (F := Ideal) x t = ∑ y : S256x4096.Idx, posTerm (x y) (t y) := by
  unfold k0_pay4
  dsimp only
  refine (tileReduce _ rfl _).trans ?_
  refine (sum_shapeCast _ shapeCasts_S256x4096_S1x256x4096 fun v => v).trans ?_
  exact Finset.sum_congr rfl fun y _ => posTerm_sub (x y) (t y)

/-- The sum over a tile of `-log1p(-x)` where the target is 0. -/
theorem negTile (x : Vec Ideal S256x4096 .f32) (t : Vec Ideal S256x4096 .i32) :
    k0_pay5 (F := Ideal) x t = ∑ y : S256x4096.Idx, negTerm (x y) (t y) := by
  unfold k0_pay5
  dsimp only
  refine (tileReduce _ rfl _).trans ?_
  refine (sum_shapeCast _ shapeCasts_S256x4096_S1x256x4096 fun v => v).trans ?_
  exact Finset.sum_congr rfl fun y _ => negTerm_sub (x y) (t y)

end Cert.KernelIdeal.Acc

end
-- ==== Proof.Lanes.lean ====
/-
  One point's update read at the three lanes that matter, on the extended reals: it adds the tile's first reduction to
  lane 0 of the accumulator row, the second to lane 1 and the third to lane 2 — the lane masks compare the lane number
  with 0, 1 and 2 — and the zero row is zero at every lane.
-/
import proofs.«118285_j72258529788242_1_alg».proof.Proof.Pieces
import proofs.«118285_j72258529788242_1_alg».proof.Proof.Spec
import proofs.«118285_j72258529788242_1_alg».proof.Proof.LibGridSum
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.TcCoe Idealize.SL.Sem

namespace Cert.KernelIdeal.Acc

open Cert.KernelIdeal Cert.KernelIdeal.Gen Cert.Spec Cert.GridSum Idealize.ShloMosaic.ValueIdx

/-- Lane `l` of the accumulator row. -/
abbrev lane (l : Fin 128) : S1x128.Idx := ix2 (0 : Fin 1) l

/-- The update at a lane, for ANY three scalars placed in lanes 0, 1, 2: the old value plus the nested selection on the lane
    number. -/
theorem place_apply (a b d : Ideal .f32) (acc : Vec Ideal S1x128 .f32) (j : S1x128.Idx) :
    k0_pay1 (F := Ideal) a b d lanes k0_pay6 k0_pay7 2#32 acc j = acc j +
      Scalar.select (k0_pay6 j) a
        (Scalar.select (k0_pay7 j) b
          (Scalar.select (IntOp.cmpi .eq (lanes j) 2#32) d (Scalar.ofBits .f32 0x00000000#32))) := by
  unfold k0_pay1
  rw [shapeCast_self]
  rfl

theorem place_lane0 (a b d : Ideal .f32) (acc : Vec Ideal S1x128 .f32) :
    k0_pay1 (F := Ideal) a b d lanes k0_pay6 k0_pay7 2#32 acc (lane 0) = acc (lane 0) + a := by
  rw [place_apply, show k0_pay6 (lane 0) = 1#1 from by decide, select_one]

theorem place_lane1 (a b d : Ideal .f32) (acc : Vec Ideal S1x128 .f32) :
    k0_pay1 (F := Ideal) a b d lanes k0_pay6 k0_pay7 2#32 acc (lane 1) = acc (lane 1) + b := by
  rw [place_apply, show k0_pay6 (lane 1) = 0#1 from by decide, select_zero, show k0_pay7 (lane 1) = 1#1 from by decide, select_one]

theorem place_lane2 (a b d : Ideal .f32) (acc : Vec Ideal S1x128 .f32) :
    k0_pay1 (F := Ideal) a b d lanes k0_pay6 k0_pay7 2#32 acc (lane 2) = acc (lane 2) + d := by
  rw [place_apply, show k0_pay6 (lane 2) = 0#1 from by decide, select_zero, show k0_pay7 (lane 2) = 0#1 from by decide, select_zero,
    show IntOp.cmpi .eq (lanes (lane 2)) 2#32 = 1#1 from by decide, select_one]

theorem step_lane0 (x : Vec Ideal S256x4096 .f32) (t : Vec Ideal S256x4096 .i32) (acc : Vec Ideal S1x128 .f32) :
    step (F := Ideal) x t acc (lane 0) = acc (lane 0) + k0_pay3 (F := Ideal) t := by
  unfold step
  exact place_lane0 _ _ _ acc

theorem step_lane1 (x : Vec Ideal S256x4096 .f32) (t : Vec Ideal S256x4096 .i32) (acc : Vec Ideal S1x128 .f32) :
    step (F := Ideal) x t acc (lane 1) = acc (lane 1) + k0_pay4 (F := Ideal) x t := by
  unfold step
  exact place_lane1 _ _ _ acc

theorem step_lane2 (x : Vec Ideal S256x4096 .f32) (t : Vec Ideal S256x4096 .i32) (acc : Vec Ideal S1x128 .f32) :
    step (F := Ideal) x t acc (lane 2) = acc (lane 2) + k0_pay5 (F := Ideal) x t := by
  unfold step
  exact place_lane2 _ _ _ acc

/-- The zero row is zero at every lane. -/
theorem zeroRow_apply (j : S1x128.Idx) : (zeroRow (F := Ideal)) j = 0 := by
  show k0_pay2 (F := Ideal) j = 0
  unfold k0_pay2
  rw [shapeCast_self]
  exact zero_word

end Cert.KernelIdeal.Acc

end
-- ==== Proof.Blocks.lean ====
/-
  The tiles are the arrays' row blocks, and the last row's three lanes are the three sums over the whole arrays.

  Point u's tile of an argument array is its block of rows 256·u … 256·u + 255: entry (r, k) of the tile is entry
  (256·u + r, k) of the array. Lane l ∈ {0, 1, 2} of the carried row after point n is the sum of the first n + 1 tiles'
  l-th reductions (the zero row started it), so after the last point it is the sum over all 64 blocks of the sums over a
  block — the sum over the array.
-/
import proofs.«118285_j72258529788242_1_alg».proof.Proof.Chain
import proofs.«118285_j72258529788242_1_alg».proof.Proof.Tiles
import proofs.«118285_j72258529788242_1_alg».proof.Proof.Lanes

set_option maxRecDepth 16384

noncomputable section

open Idealize.ShloMosaic Idealize.ShloMosaic.TcCoe Idealize.SL.Sem

namespace Cert.KernelIdeal.Acc

open Cert.KernelIdeal Cert.KernelIdeal.Gen Cert.Spec Cert.GridSum Idealize.ShloMosaic.ValueIdx

variable (m : (ℓ : Loc nD τ sig) → Buf (Elt Ideal) ℓ)

/-- 64 blocks of 256 rows make the 16384 rows. -/
theorem rows_eq : 64 * 256 = 16384 := by decide

/-- A grid point as a block number. -/
abbrev blockOf (t : Fin cfg0.N) : Fin 64 := ⟨t.val, lt_of_lt_of_eq t.isLt N_0⟩

/-- Both input windows sit at block row `t`, block column 0, at every point. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Entry (r, k) of point t's tile of the first argument is entry (256·t + r, k) of the argument. -/
theorem tile0_apply (c : Dev nD) (t : Fin cfg0.N) (y : S256x4096.Idx) :
    (iblk m c 0 t : Vec Ideal S256x4096 .f32) y = m ((c : Thread nD τ).loc main_arg0) (blockRow rows_eq (blockOf t) y) := by
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t 0 * 256 + 1 * (y 0).val = t.val * 256 + (y 0).val; rw [(index0 t).1]; omega
  | ⟨1, _⟩ => show win0_0.index t 1 * 4096 + 1 * (y 1).val = (y 1).val; rw [(index0 t).2]; omega

/-- The same for the second argument. -/
theorem tile1_apply (c : Dev nD) (t : Fin cfg0.N) (y : S256x4096.Idx) :
    (iblk m c 1 t : Vec Ideal S256x4096 .i32) y = m ((c : Thread nD τ).loc main_arg1) (blockRow rows_eq (blockOf t) y) := by
  unfold iblk
  rw [View.read_apply]
  show V m c main_arg1 _ = m (c.tc.loc main_arg1) _
  rw [V_main_arg1]
  refine congrArg (m (c.tc.loc main_arg1)) ?_
  funext a
  apply Fin.ext
  match a with
  | ⟨0, _⟩ => show win0_1.index t 0 * 256 + 1 * (y 0).val = t.val * 256 + (y 0).val; rw [(index1 t).1]; omega
  | ⟨1, _⟩ => show win0_1.index t 1 * 4096 + 1 * (y 1).val = (y 1).val; rw [(index1 t).2]; omega

/-- A lane to which every update adds a reduction `g` of the point's tiles holds, after point n, the sum of `g` over the
    first n + 1 points' tiles: by induction on the point. -/
theorem lane_after (l : Fin 128) (g : Vec Ideal S256x4096 .f32 → Vec Ideal S256x4096 .i32 → EReal)
    (hstep : ∀ x t acc, step (F := Ideal) x t acc (lane l) = acc (lane l) + g x t) (c : Dev nD) :
    ∀ (n : ℕ) (h : n < cfg0.N), rowAfter m c n h (lane l)
      = ∑ u : Fin (n + 1), g (iblk m c 0 ⟨u.val, by omega⟩) (iblk m c 1 ⟨u.val, by omega⟩)
  | 0, h => by
    show step _ _ zeroRow (lane l) = _
    rw [hstep, zeroRow_apply, zero_add, Fin.sum_univ_one]
    rfl
  | n + 1, h => by
    show step _ _ (rowAfter m c n _) (lane l) = _
    rw [hstep, lane_after l g hstep c n, sum_fin_succ_last]

/-- After the last point: the sum over the 64 blocks. -/
theorem lane_last (l : Fin 128) (g : Vec Ideal S256x4096 .f32 → Vec Ideal S256x4096 .i32 → EReal)
    (hstep : ∀ x t acc, step (F := Ideal) x t acc (lane l) = acc (lane l) + g x t) (c : Dev nD) :
    lastRow m c (lane l) = ∑ u : Fin 64, g (iblk m c 0 ⟨u.val, lt_of_lt_of_eq u.isLt N_0.symm⟩) (iblk m c 1 ⟨u.val, lt_of_lt_of_eq u.isLt N_0.symm⟩) :=
  lane_after m l g hstep c 63 _

/-- Lane 0 ends at the sum of the targets as floats over the whole array, -/
theorem last_cnt (c : Dev nD) : lastRow m c (lane 0) = cnt (m ((c : Thread nD τ).loc main_arg1)) := by
  rw [lane_last m 0 (fun _ t => k0_pay3 (F := Ideal) t) step_lane0 c]
  unfold cnt
  rw [← sum_rowBlocks (T := 64) (R := 256) rows_eq fun i => cntTerm (m ((c : Thread nD τ).loc main_arg1) i)]
  refine Finset.sum_congr rfl fun u _ => ?_
  rw [cntTile]
  exact Finset.sum_congr rfl fun y _ => congrArg cntTerm (tile1_apply m c _ y)

/-- lane 1 at the masked sum of `-log x`, -/
theorem last_pos (c : Dev nD) :
    lastRow m c (lane 1) = pos (m ((c : Thread nD τ).loc main_arg0)) (m ((c : Thread nD τ).loc main_arg1)) := by
  rw [lane_last m 1 (fun x t => k0_pay4 (F := Ideal) x t) step_lane1 c]
  unfold pos
  rw [← sum_rowBlocks (T := 64) (R := 256) rows_eq fun i =>
    posTerm (m ((c : Thread nD τ).loc main_arg0) i) (m ((c : Thread nD τ).loc main_arg1) i)]
  refine Finset.sum_congr rfl fun u _ => ?_
  rw [posTile]
  exact Finset.sum_congr rfl fun y _ => congrArg₂ posTerm (tile0_apply m c _ y) (tile1_apply m c _ y)

/-- lane 2 at the masked sum of `-log1p(-x)`. -/
theorem last_neg (c : Dev nD) :
    lastRow m c (lane 2) = neg (m ((c : Thread nD τ).loc main_arg0)) (m ((c : Thread nD τ).loc main_arg1)) := by
  rw [lane_last m 2 (fun x t => k0_pay5 (F := Ideal) x t) step_lane2 c]
  unfold neg
  rw [← sum_rowBlocks (T := 64) (R := 256) rows_eq fun i =>
    negTerm (m ((c : Thread nD τ).loc main_arg0) i) (m ((c : Thread nD τ).loc main_arg1) i)]
  refine Finset.sum_congr rfl fun u _ => ?_
  rw [negTile]
  exact Finset.sum_congr rfl fun y _ => congrArg₂ negTerm (tile0_apply m c _ y) (tile1_apply m c _ y)

end Cert.KernelIdeal.Acc

end
-- ==== Proof.KernelValue.lean ====
/-
  The kernel's program computes `G`.

  After the pallas_call the host slices entries (0,0), (0,1), (0,2) out of the (1,128) result array, reshapes each to a
  scalar and applies the closing arithmetic. The array holds the row after the last grid point, whose lanes 0, 1, 2 are
  the three sums over the whole argument arrays; so the program's result is the specification's function of the
  arguments, and the arguments are left as they were.
-/
import proofs.«118285_j72258529788242_1_alg».proof.Proof.Blocks
import Idealize.ShloMosaic.Lib.StableHlo.Run

set_option maxRecDepth 16384

noncomputable section

open Idealize.ShloMosaic Idealize.ShloMosaic.TcCoe Idealize.SL.Sem

namespace Cert.KernelIdeal.Acc

open Cert.KernelIdeal Cert.KernelIdeal.Gen Cert.Spec Idealize.ShloMosaic.ValueIdx

/-- One entry of the (1,128) row sliced out as a (1,1) array and reshaped to a scalar. -/
def laneScalar (A : Vec Ideal S1x128 .f32) (off : Fin 2 → ℕ) (h : S1x128.Slices off S1x1) : FVec Ideal S_ .f32 :=
  shapeCast S_ (extractStridedSlice S1x1 off A h) shapeCasts_S1x1_S_

/-- Sliced at offset (0, l) it is lane l of the row. -/
theorem laneScalar_eq (A : Vec Ideal S1x128 .f32) (l : Fin 128) (off : Fin 2 → ℕ) (hoff : off = ![0, l.val])
    (h : S1x128.Slices off S1x1) : laneScalar A off h = fun _ => A (lane l) := by
  subst hoff
  funext i
  unfold laneScalar shapeCast extractStridedSlice
  refine congrArg A ?_
  funext a
  apply Fin.ext
  match a with
  | ⟨0, _⟩ =>
    show 0 + ((Shape.reshapeEquiv shapeCasts_S1x1_S_ i) 0).val = 0
    have : ((Shape.reshapeEquiv shapeCasts_S1x1_S_ i) 0).val < 1 := ((Shape.reshapeEquiv shapeCasts_S1x1_S_ i) 0).isLt
    omega
  | ⟨1, _⟩ =>
    show l.val + ((Shape.reshapeEquiv shapeCasts_S1x1_S_ i) 1).val = l.val
    have : ((Shape.reshapeEquiv shapeCasts_S1x1_S_ i) 1).val < 1 := ((Shape.reshapeEquiv shapeCasts_S1x1_S_ i) 1).isLt
    omega

variable (m : (ℓ : Loc nD τ sig) → Buf (Elt Ideal) ℓ) (ρ : Dev nD → PrngReg)

/-- When the host lines after the region start, the result array holds the row after the last grid point. -/
theorem array_eq (c : Dev nD) :
    Pipeline.withArrays (cfgs 0).spec c (V0 m c) (fun w => (dats m 0 c).arrAt w (cfgs 0).N) (Proc.devRef .tc main_v0)
      = result m c :=
  (Pipeline.withArrays_arr spec0 launch0.win.arr_inj c _ _ 2).trans (final m c)

/-- The program's result: the closing arithmetic of the three lanes, which are the three sums. -/
theorem tail_eq (c : Dev nD) :
    Pipeline.afterTail₀ cfgs (dats m) 0 (V0 m) [hostOps1] c main_v16
      = G (m ((c : Thread nD τ).loc main_arg0)) (m ((c : Thread nD τ).loc main_arg1)) := by
  unfold Pipeline.afterTail₀
  show StableHlo.after hostOps1 _ (Proc.devRef .tc main_v16) = _
  after_results
  rw [array_eq m c]
  change loss (laneScalar (result m c) ![0, 0] slices_S1x128_S1x1_0_0) (laneScalar (result m c) ![0, 1] slices_S1x128_S1x1_0_1)
    (laneScalar (result m c) ![0, 2] slices_S1x128_S1x1_0_2) = _
  rw [laneScalar_eq (result m c) 0 ![0, 0] rfl slices_S1x128_S1x1_0_0, laneScalar_eq (result m c) 1 ![0, 1] rfl slices_S1x128_S1x1_0_1,
    laneScalar_eq (result m c) 2 ![0, 2] rfl slices_S1x128_S1x1_0_2]
  show loss (fun _ => lastRow m c (lane 0)) (fun _ => lastRow m c (lane 1)) (fun _ => lastRow m c (lane 2)) = _
  rw [last_cnt, last_pos, last_neg]
  rfl

/-- The run, read: the result at `G` of the arguments, the arguments unchanged. -/
theorem run : θ_run defs (onTc (τ := τ) (main (F := Ideal))) ⟨m, fun _ => 0, ρ⟩ fun r => ∀ c : Dev nD,
      r.2.mem ((c.tc : Thread nD τ).loc main_v16) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v16 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Acc

end
-- ==== Proof.RefValue.lean ====
/-
  The reference computes `G`.

  It flattens both arrays to one axis, forms the three entrywise terms and sums each along that axis from the zero word.
  A reshape only renames indices, so each sum is the sum over the array's own index set; the closing scalar arithmetic
  is the specification's, word for word.
-/
import proofs.«118285_j72258529788242_1_alg».proof.Proof.Gen.ReferenceIdeal.Read
import proofs.«118285_j72258529788242_1_alg».proof.Proof.Spec
import proofs.«118285_j72258529788242_1_alg».proof.Proof.LibGridSum

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Spec Cert.GridSum

/-- The host's sum of the flattened targets read as floats is the sum over the array. -/
theorem sum_targets (x1 : (⟨S16384x4096, .i32⟩ : BufTy).Contents (Elt Ideal)) (i : S_.Idx) :
    val_main_v3 (F := Ideal) x1 i = cnt x1 := by
  rw [val_main_v3_apply, val_main_cst_apply, Ideal.ofBits_def, Ideal.ofBits_zero_f32, zero_add]
  exact sum_shapeCast x1 shapeCasts_S16384x4096_S67108864 cntTerm

/-- The host's masked sum of `-log x`. -/
theorem sum_pos (x0 : (⟨S16384x4096, .f32⟩ : BufTy).Contents (Elt Ideal)) (x1 : (⟨S16384x4096, .i32⟩ : BufTy).Contents (Elt Ideal))
    (i : S_.Idx) : val_main_v13 (F := Ideal) x0 x1 i = pos x0 x1 := by
  rw [val_main_v13_apply, val_main_cst_5_apply, Ideal.ofBits_def, Ideal.ofBits_zero_f32, zero_add]
  have e : ∀ j, val_main_v12 (F := Ideal) x0 x1 j
      = posTerm (shapeCast S67108864 x0 shapeCasts_S16384x4096_S67108864 j) (shapeCast S67108864 x1 shapeCasts_S16384x4096_S67108864 j) := fun j => by
    rw [val_main_v12_apply, val_main_v9_apply, val_main_v8_apply, val_main_c_apply, val_main_v11_apply, val_main_v10_apply,
      val_main_call0_v0_apply, val_main_cst_4_apply]
    exact posTerm_neg _ _
  rw [Finset.sum_congr rfl fun j _ => e j]
  exact sum_shapeCast₂ x0 x1 shapeCasts_S16384x4096_S67108864 posTerm

/-- The host's masked sum of `-log1p(-x)`. -/
theorem sum_neg (x0 : (⟨S16384x4096, .f32⟩ : BufTy).Contents (Elt Ideal)) (x1 : (⟨S16384x4096, .i32⟩ : BufTy).Contents (Elt Ideal))
    (i : S_.Idx) : val_main_v20 (F := Ideal) x0 x1 i = neg x0 x1 := by
  rw [val_main_v20_apply, val_main_cst_8_apply, Ideal.ofBits_def, Ideal.ofBits_zero_f32, zero_add]
  have e : ∀ j, val_main_v19 (F := Ideal) x0 x1 j
      = negTerm (shapeCast S67108864 x0 shapeCasts_S16384x4096_S67108864 j) (shapeCast S67108864 x1 shapeCasts_S16384x4096_S67108864 j) := fun j => by
    rw [val_main_v19_apply, val_main_v15_apply, val_main_v14_apply, val_main_c_6_apply, val_main_v18_apply, val_main_v17_apply,
      val_main_v16_apply, val_main_call1_v0_apply, val_main_cst_7_apply]
    exact negTerm_neg _ _
  rw [Finset.sum_congr rfl fun j _ => e j]
  exact sum_shapeCast₂ x0 x1 shapeCasts_S16384x4096_S67108864 negTerm

/-- The reference's result is the specification's function of the argument arrays. -/
theorem result_eq (x0 : (⟨S16384x4096, .f32⟩ : BufTy).Contents (Elt Ideal)) (x1 : (⟨S16384x4096, .i32⟩ : BufTy).Contents (Elt Ideal)) :
    val_main_v26 (F := Ideal) x0 x1 = G x0 x1 := by
  have hs : val_main_v3 (F := Ideal) x1 = fun _ => cnt x1 := funext fun i => sum_targets x1 i
  have hp : val_main_v13 (F := Ideal) x0 x1 = fun _ => pos x0 x1 := funext fun i => sum_pos x0 x1 i
  have hn : val_main_v20 (F := Ideal) x0 x1 = fun _ => neg x0 x1 := funext fun i => sum_neg x0 x1 i
  show loss (val_main_v3 (F := Ideal) x1) (val_main_v13 (F := Ideal) x0 x1) (val_main_v20 (F := Ideal) x0 x1) = _
  rw [hs, hp, hn]
  rfl

end Cert.ReferenceIdeal.RefValue

end
-- ==== Proof.lean ====
/-
  A class-balanced binary cross-entropy loss over a 16384 × 4096 array of probabilities x and integer targets t:
  with  S = Σ float(t),  P = Σ [t = 1]·(-log x),  N = Σ [t = 0]·(-log1p(-x))  and L the float word of the entry count,

      loss = ((L / (S + 1) + 1) · P + (L / (L - S) + 1) · N) / L.

  The kernel streams the arrays as 64 tiles of 256 rows, reduces each tile to its three partial sums, adds them into
  lanes 0, 1, 2 of a (1,128) row carried across the grid (started from the zero row at the first point, copied to the
  output at the last), and the host finishes the scalar arithmetic from those three lanes. The reference flattens the
  arrays and takes the three sums at once, then the same scalar arithmetic.

  On the extended reals both are the function `Spec.G` of the argument arrays: the entrywise terms agree (`0 - y = -y`;
  the logarithms are the same functions on both sides), a reshape only renames indices, the 64 row blocks tile the array,
  and a finite sum of extended reals does not depend on its order or grouping — so no finiteness of the inputs is used.
  The ideal pass rewrote nothing, so the idealization claim is trivial; the three frames are the generated runs.

  Modules: Spec (the function G), LibGridSum (sums under reshapes and row blocks), Pieces and Chain (what each grid point
  leaves in the carried row; the result array), Tiles and Lanes (a tile's reductions and the update, at Ideal), Blocks
  (the last row's lanes are the sums over the arrays), KernelValue (the kernel program's run ends at G), RefValue (the
  reference's term is G).
-/
import proofs.«118285_j72258529788242_1_alg».proof.Defs
import proofs.«118285_j72258529788242_1_alg».proof.Proof.Gen.Kernel
import proofs.«118285_j72258529788242_1_alg».proof.Proof.Gen.Kernel.Skeleton
import proofs.«118285_j72258529788242_1_alg».proof.Proof.Gen.Kernel.Launch
import proofs.«118285_j72258529788242_1_alg».proof.Proof.Gen.Kernel.Points
import proofs.«118285_j72258529788242_1_alg».proof.Proof.Gen.Kernel.Frame
import proofs.«118285_j72258529788242_1_alg».proof.Proof.Gen.KernelIdeal
import proofs.«118285_j72258529788242_1_alg».proof.Proof.Gen.KernelIdeal.Skeleton
import proofs.«118285_j72258529788242_1_alg».proof.Proof.Gen.KernelIdeal.Launch
import proofs.«118285_j72258529788242_1_alg».proof.Proof.Gen.KernelIdeal.Points
import proofs.«118285_j72258529788242_1_alg».proof.Proof.Gen.KernelIdeal.Frame
import proofs.«118285_j72258529788242_1_alg».proof.Proof.Gen.ReferenceIdeal
import proofs.«118285_j72258529788242_1_alg».proof.Proof.Gen.ReferenceIdeal.Run
import proofs.«118285_j72258529788242_1_alg».proof.Proof.Gen.ReferenceIdeal.Read
import proofs.«118285_j72258529788242_1_alg».proof.Proof.Gen.Pre_finite_inputs
import proofs.«118285_j72258529788242_1_alg».proof.Proof.KernelValue
import proofs.«118285_j72258529788242_1_alg».proof.Proof.RefValue
import Idealize.ShloMosaic.Adequacy
import Idealize.ShloMosaic.Init

noncomputable section

namespace Cert.Proof

open Idealize.ShloMosaic Idealize.SL.Sem Cert.Kernel

/-- The word-level kernel terminates without fault and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at `Spec.G` of argument arrays that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
